-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S500x1024 : Shape := ⟨2, ![500, 1024]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S500x1024 : S_.BroadcastsInDim S500x1024 (![] : Fin 0 → Fin S500x1024.rank)
  reducesTo_S500x1024_S_d0_1 : S500x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x512 .f32) (main_arg5 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S128x1024 .f32) (main_arg1 : FVec F S500x1024 .f32) (main_arg2 : FVec F S512x2048 .f32) (main_arg3 : FVec F S512 .f32) (main_arg4 : FVec F S1x512 .f32) (main_arg5 : FVec F S1 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S500x1024 .f32 := Host.absf main_arg1
  let main_cst_0 : FVec F S_ .f32 := constant S_ .f32 0x7F800000#32
  let main_v5 : FVec F S500x1024 .f32 := broadcastInDim S500x1024 ![] bcast_S_S500x1024 main_cst_0
  let main_v6 : IVec S500x1024 1 := cmpf .olt main_v4 main_v5
  let main_c_1 : IVec S_ 1 := constantI S_ 1 1#1
  let main_v7 : IVec S_ 1 := (fun x v => Host.reduce IntOp.andi x v reducesTo_S500x1024_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S128x1024 : Shape := ⟨2, ![128, 1024]⟩
abbrev S500x1024 : Shape := ⟨2, ![500, 1024]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S512x1024 : Shape := ⟨2, ![512, 1024]⟩
abbrev S1024x512 : Shape := ⟨2, ![1024, 512]⟩
abbrev S1x1 : Shape := ⟨2, ![1, 1]⟩
abbrev S128x512 : Shape := ⟨2, ![128, 512]⟩
abbrev S500x512 : Shape := ⟨2, ![500, 512]⟩
abbrev S128x500 : Shape := ⟨2, ![128, 500]⟩
abbrev S8x512 : Shape := ⟨2, ![8, 512]⟩
abbrev S8x500 : Shape := ⟨2, ![8, 500]⟩
abbrev S8x1x512 : Shape := ⟨3, ![8, 1, 512]⟩
abbrev S1x500x512 : Shape := ⟨3, ![1, 500, 512]⟩
abbrev S8x500x512 : Shape := ⟨3, ![8, 500, 512]⟩
abbrev S1x1x512 : Shape := ⟨3, ![1, 1, 512]⟩

abbrev nBuf : Space → Nat
  | .hbm => 15
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S500x1024, .f32⟩
  | .hbm, ⟨2, _⟩ => ⟨S512x2048, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S512x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1x512, .f32⟩
  | .hbm, ⟨11, _⟩ => ⟨S1x1, .f32⟩
  | .hbm, ⟨12, _⟩ => ⟨S128x512, .f32⟩
  | .hbm, ⟨13, _⟩ => ⟨S500x512, .f32⟩
  | .hbm, ⟨14, _⟩ => ⟨S128x500, .f32⟩
  | .local _ .vmem, ⟨0, _⟩ => ⟨S128x1024, .f32⟩
  | .local _ .vmem, ⟨1, _⟩ => ⟨S500x1024, .f32⟩
  | .local _ .vmem, ⟨2, _⟩ => ⟨S1024x512, .f32⟩
  | .local _ .vmem, ⟨3, _⟩ => ⟨S1024x512, .f32⟩
  | .local _ .vmem, ⟨4, _⟩ => ⟨S128x512, .f32⟩
  | .local _ .vmem, ⟨5, _⟩ => ⟨S500x512, .f32⟩
  | .local _ .vmem, ⟨6, _⟩ => ⟨S8x512, .f32⟩
  | .local _ .vmem, ⟨7, _⟩ => ⟨S8x512, .f32⟩
  | .local _ .vmem, ⟨8, _⟩ => ⟨S500x512, .f32⟩
  | .local _ .vmem, ⟨9, _⟩ => ⟨S1x512, .f32⟩
  | .local _ .vmem, ⟨10, _⟩ => ⟨S1x512, .f32⟩
  | .local _ .vmem, ⟨11, _⟩ => ⟨S1x1, .f32⟩
  | .local _ .vmem, ⟨12, _⟩ => ⟨S8x500, .f32⟩
  | .local _ .vmem, ⟨13, _⟩ => ⟨S8x500, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S500x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S500x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x500 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S512x2048_S512x1024_0_0 : S512x2048.Slices ![0, 0] S512x1024
  transposes_S512x1024_S1024x512_1_0 : S512x1024.Transposes [1, 0] S1024x512
  slices_S512x2048_S512x1024_0_1024 : S512x2048.Slices ![0, 1024] S512x1024
  shapeCasts_S512_S1x512 : S512.ShapeCasts S1x512
  shapeCasts_S1_S1x1 : S1.ShapeCasts S1x1
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x512_S128x512_0_0 : ∀ a, (![0, 0] : Fin 2 → Nat) a + S128x512.size a ≤ S128x512.size a
  h_S128x512 : 0 < S128x512.numel
  inb_S500x1024_S500x1024_0_0 : ∀ a, (![0, 0] : Fin 2 → Nat) a + S500x1024.size a ≤ S500x1024.size a
  h_S500x1024 : 0 < S500x1024.numel
  inb_S500x512_S500x512_0_0 : ∀ a, (![0, 0] : Fin 2 → Nat) a + S500x512.size a ≤ S500x512.size a
  h_S500x512 : 0 < S500x512.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S500x512_S500x512 : S500x512.ShapeCasts S500x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S8x512_S8x1x512 : S8x512.ShapeCasts S8x1x512
  shapeCasts_S500x512_S1x500x512 : S500x512.ShapeCasts S1x500x512
  broadcasts_S8x1x512_S8x500x512 : S8x1x512.Broadcasts S8x500x512
  broadcasts_S1x500x512_S8x500x512 : S1x500x512.Broadcasts S8x500x512
  shapeCasts_S1x512_S1x1x512 : S1x512.ShapeCasts S1x1x512
  broadcasts_S1x1x512_S8x500x512 : S1x1x512.Broadcasts S8x500x512
  reduces_S8x500x512_S8x500 : S8x500x512.Reduces [2] S8x500
  inb_S8x500_S8x500_0_0 : ∀ a, (![0, 0] : Fin 2 → Nat) a + S8x500.size a ≤ S8x500.size a
  h_S8x500 : 0 < S8x500.numel
  dot_S128x1024_S1024x512_S128x512_1_0_0_1_n_n_wf : DotDims.WF S128x1024 S1024x512 S128x512 [1] [0] [0] [1] [] []
  dot_S500x1024_S1024x512_S500x512_1_0_0_1_n_n_wf : DotDims.WF S500x1024 S1024x512 S500x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x1024.size a ≤ S500x1024.size a
  hwx0_1 : ∀ i : grid0.Coords, EltTy.bits .f32 = 32 ∨ (Rect.block (s := S500x1024) S500x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500x512.size a ≤ S500x512.size a
  hwx0_5 : ∀ i : grid0.Coords, EltTy.bits .f32 = 32 ∨ (Rect.block (s := S500x512) S500x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S128x512.size a
  hwx1_0 : ∀ i : grid1.Coords, EltTy.bits .f32 = 32 ∨ (Rect.block (s := S128x512) S8x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S500x512.size a ≤ S500x512.size a
  hwx1_1 : ∀ i : grid1.Coords, EltTy.bits .f32 = 32 ∨ (Rect.block (s := S500x512) S500x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x500.size a ≤ S128x500.size a
  hwx1_5 : ∀ i : grid1.Coords, EltTy.bits .f32 = 32 ∨ (Rect.block (s := S128x500) S8x500.size (cc1_transform_5 i) (hinb1_5 i)).WholeWords (EltTy.packing .f32)

variable [Facts₀]

def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S500x1024_S1024x512_S500x512_1_0_0_1_n_n : DotDims S500x1024 S1024x512 S500x512 where
  lhsContracting := [1]
  rhsContracting := [0]
  lhsNonContracting := [0]
  rhsNonContracting := [1]
  lhsBatch := []
  rhsBatch := []
  wf := dot_S500x1024_S1024x512_S500x512_1_0_0_1_n_n_wf

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S128x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S500x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6_0) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S500x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S8x500.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S128x1024 : Shape := ⟨2, ![128, 1024]⟩
abbrev S500x1024 : Shape := ⟨2, ![500, 1024]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S512x1024 : Shape := ⟨2, ![512, 1024]⟩
abbrev S1024x512 : Shape := ⟨2, ![1024, 512]⟩
abbrev S128x512 : Shape := ⟨2, ![128, 512]⟩
abbrev S500x512 : Shape := ⟨2, ![500, 512]⟩
abbrev S128x1x512 : Shape := ⟨3, ![128, 1, 512]⟩
abbrev S1x500x512 : Shape := ⟨3, ![1, 500, 512]⟩
abbrev S128x500x512 : Shape := ⟨3, ![128, 500, 512]⟩
abbrev S1x1x512 : Shape := ⟨3, ![1, 1, 512]⟩
abbrev S_ : Shape := ⟨0, ![]⟩
abbrev S128x500x1 : Shape := ⟨3, ![128, 500, 1]⟩
abbrev S1x1x1 : Shape := ⟨3, ![1, 1, 1]⟩
abbrev S128x500 : Shape := ⟨2, ![128, 500]⟩

abbrev nBuf : Space → Nat
  | .hbm => 36
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S500x1024, .f32⟩
  | .hbm, ⟨2, _⟩ => ⟨S512x2048, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S512x1024, .f32⟩
  | .hbm, ⟨7, _⟩ => ⟨S1024x512, .f32⟩
  | .hbm, ⟨8, _⟩ => ⟨S128x512, .f32⟩
  | .hbm, ⟨9, _⟩ => ⟨S512x1024, .f32⟩
  | .hbm, ⟨10, _⟩ => ⟨S1024x512, .f32⟩
  | .hbm, ⟨11, _⟩ => ⟨S500x512, .f32⟩
  | .hbm, ⟨12, _⟩ => ⟨S128x1x512, .f32⟩
  | .hbm, ⟨13, _⟩ => ⟨S1x500x512, .f32⟩
  | .hbm, ⟨14, _⟩ => ⟨S128x500x512, .f32⟩
  | .hbm, ⟨15, _⟩ => ⟨S128x500x512, .f32⟩
  | .hbm, ⟨16, _⟩ => ⟨S128x500x512, .f32⟩
  | .hbm, ⟨17, _⟩ => ⟨S1x1x512, .f32⟩
  | .hbm, ⟨18, _⟩ => ⟨S128x500x512, .f32⟩
  | .hbm, ⟨19, _⟩ => ⟨S128x500x512, .f32⟩
  | .hbm, ⟨20, _⟩ => ⟨S_, .f32⟩
  | .hbm, ⟨21, _⟩ => ⟨S128x500x512, .f32⟩
  | .hbm, ⟨22, _⟩ => ⟨S128x500x512, .f32⟩
  | .hbm, ⟨23, _⟩ => ⟨S128x500x1, .f32⟩
  | .hbm, ⟨24, _⟩ => ⟨S1x1x1, .f32⟩
  | .hbm, ⟨25, _⟩ => ⟨S128x500x1, .f32⟩
  | .hbm, ⟨26, _⟩ => ⟨S128x500x1, .f32⟩
  | .hbm, ⟨27, _⟩ => ⟨S128x500x1, .f32⟩
  | .hbm, ⟨28, _⟩ => ⟨S128x500x1, .f32⟩
  | .hbm, ⟨29, _⟩ => ⟨S_, .f32⟩
  | .hbm, ⟨30, _⟩ => ⟨S128x500x1, .f32⟩
  | .hbm, ⟨31, _⟩ => ⟨S128x500x1, .f32⟩
  | .hbm, ⟨32, _⟩ => ⟨S_, .f32⟩
  | .hbm, ⟨33, _⟩ => ⟨S128x500x1, .f32⟩
  | .hbm, ⟨34, _⟩ => ⟨S128x500x1, .f32⟩
  | .hbm, ⟨35, _⟩ => ⟨S128x500, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  slices_S512x2048_S512x1024_0_0 : S512x2048.Slices ![0, 0] S512x1024
  transposes_S512x1024_S1024x512_1_0 : S512x1024.Transposes [1, 0] S1024x512
  slices_S512x2048_S512x1024_0_1024 : S512x2048.Slices ![0, 1024] S512x1024
  bcast_S128x512_S128x1x512_0_2 : S128x512.BroadcastsInDim S128x1x512 (![0, 2] : Fin 2 → Fin S128x1x512.rank)
  bcast_S500x512_S1x500x512_1_2 : S500x512.BroadcastsInDim S1x500x512 (![1, 2] : Fin 2 → Fin S1x500x512.rank)
  bcast_S128x1x512_S128x500x512_0_1_2 : S128x1x512.BroadcastsInDim S128x500x512 (![0, 1, 2] : Fin 3 → Fin S128x500x512.rank)
  bcast_S1x500x512_S128x500x512_0_1_2 : S1x500x512.BroadcastsInDim S128x500x512 (![0, 1, 2] : Fin 3 → Fin S128x500x512.rank)
  bcast_S512_S1x1x512_2 : S512.BroadcastsInDim S1x1x512 (![2] : Fin 1 → Fin S1x1x512.rank)
  bcast_S1x1x512_S128x500x512_0_1_2 : S1x1x512.BroadcastsInDim S128x500x512 (![0, 1, 2] : Fin 3 → Fin S128x500x512.rank)
  bcast_S_S128x500x512 : S_.BroadcastsInDim S128x500x512 (![] : Fin 0 → Fin S128x500x512.rank)
  bcast_S1_S1x1x1_2 : S1.BroadcastsInDim S1x1x1 (![2] : Fin 1 → Fin S1x1x1.rank)
  bcast_S1x1x1_S128x500x1_0_1_2 : S1x1x1.BroadcastsInDim S128x500x1 (![0, 1, 2] : Fin 3 → Fin S128x500x1.rank)
  bcast_S_S128x500x1 : S_.BroadcastsInDim S128x500x1 (![] : Fin 0 → Fin S128x500x1.rank)
  shapeCasts_S128x500x1_S128x500 : S128x500x1.ShapeCasts S128x500
  dot_S128x1024_S1024x512_S128x512_1_0_0_1_n_n_wf : DotDims.WF S128x1024 S1024x512 S128x512 [1] [0] [0] [1] [] []
  dot_S500x1024_S1024x512_S500x512_1_0_0_1_n_n_wf : DotDims.WF S500x1024 S1024x512 S500x512 [1] [0] [0] [1] [] []
  dot_S128x500x512_S1x512_S128x500x1_2_1_01_0_n_n_wf : DotDims.WF S128x500x512 S1x512 S128x500x1 [2] [1] [0, 1] [0] [] []

variable [Facts₀]

def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S500x1024_S1024x512_S500x512_1_0_0_1_n_n : DotDims S500x1024 S1024x512 S500x512 where
  lhsContracting := [1]
  rhsContracting := [0]
  lhsNonContracting := [0]
  rhsNonContracting := [1]
  lhsBatch := []
  rhsBatch := []
  wf := dot_S500x1024_S1024x512_S500x512_1_0_0_1_n_n_wf
def dot_S128x500x512_S1x512_S128x500x1_2_1_01_0_n_n : DotDims S128x500x512 S1x512 S128x500x1 where
  lhsContracting := [2]
  rhsContracting := [1]
  lhsNonContracting := [0, 1]
  rhsNonContracting := [0]
  lhsBatch := []
  rhsBatch := []
  wf := dot_S128x500x512_S1x512_S128x500x1_2_1_01_0_n_n_wf

class Facts : Prop extends Facts₀ where

variable [Facts]
-- ==== Proof.KernelRun.lean ====
/-
  The idealized kernel's run with its RESULT named.

  @main is a stretch of six host operations (two slices of W1 transposed, three reshapes) followed by two
  kernel regions.  The buffer contents at each boundary are a fold from the launch memory: `W1` after the host
  stretch, `W2` after the projection region, `W3` after the scoring region.  Every weakly fair execution
  terminates with each unscoped buffer at `W3`; read at the result buffer that is the scoring region's output
  array after its sixteen write-backs, and read at an argument it is the launch contents.
-/
import proofs.«160331_j21706764714077_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the run is the scoring region's output array after all its write-backs. -/
theorem W3_result (c : Dev nD) :
    W3 m ρ c (Proc.devRef .tc main_v7) = (dat1 (V2 m ρ) c).arrAt 5 cfg1.N :=
  W3_arr m ρ c 5

set_option backward.isDefEq.respectTransparency.types false in
/-- Every weakly fair execution of @main terminates, nothing faulting, with the result buffer at the last
    boundary's contents and the six arguments as launched. -/
theorem run : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.RunValue

end
-- ==== Proof.ProjValue.lean ====
/-
  The projection region's two output arrays.

  Its grid has ONE point and every window's block is its whole array, so a block read is the array itself: the
  region leaves in its first output the matrix product of the image features with the transposed left half of the
  first-layer weights, and in its second the product of the attribute features with the transposed right half — the
  two transposed halves being what the host operations before the region wrote.
-/
import proofs.«160331_j21706764714077_1_alg».proof.Proof.Gen.KernelIdeal.Frame
import Idealize.ShloMosaic.PureOps.Ideal
import Idealize.ShloMosaic.Lib.Pipeline.Value
import Idealize.ShloMosaic.Lib.StableHlo.Run

set_option maxRecDepth 16384

noncomputable section

namespace Cert.KernelIdeal.ProjValue

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## What the host operations before the region leave -/

/-- The left half of the first-layer weights, transposed. -/
abbrev wImg (c : Dev nD) : S1024x512.Idx → EReal :=
  transpose S1024x512 [1, 0] (extractStridedSlice S512x1024 ![0, 0] (m ((c : Thread nD τ).loc main_arg2))
    slices_S512x2048_S512x1024_0_0) transposes_S512x1024_S1024x512_1_0

/-- The right half of the first-layer weights, transposed. -/
abbrev wAttr (c : Dev nD) : S1024x512.Idx → EReal :=
  transpose S1024x512 [1, 0] (extractStridedSlice S512x1024 ![0, 1024] (m ((c : Thread nD τ).loc main_arg2))
    slices_S512x2048_S512x1024_0_1024) transposes_S512x1024_S1024x512_1_0

theorem V1_arg0 (c : Dev nD) : (V1 m ρ c main_arg0 : S128x1024.Idx → EReal) = m ((c : Thread nD τ).loc main_arg0) := by
  show StableHlo.after hostOps0 (W0 m ρ c) (Proc.devRef .tc main_arg0) = _
  after_results <;> rfl

theorem V1_arg1 (c : Dev nD) : (V1 m ρ c main_arg1 : S500x1024.Idx → EReal) = m ((c : Thread nD τ).loc main_arg1) := by
  show StableHlo.after hostOps0 (W0 m ρ c) (Proc.devRef .tc main_arg1) = _
  after_results <;> rfl

theorem V1_v1 (c : Dev nD) : (V1 m ρ c main_v1 : S1024x512.Idx → EReal) = wImg m c := by
  show StableHlo.after hostOps0 (W0 m ρ c) (Proc.devRef .tc main_v1) = _
  after_results <;> rfl

theorem V1_v3 (c : Dev nD) : (V1 m ρ c main_v3 : S1024x512.Idx → EReal) = wAttr m c := by
  show StableHlo.after hostOps0 (W0 m ρ c) (Proc.devRef .tc main_v3) = _
  after_results <;> rfl

theorem V1_v4 (c : Dev nD) : (V1 m ρ c main_v4 : S1x512.Idx → EReal)
    = shapeCast S1x512 (m ((c : Thread nD τ).loc main_arg3)) shapeCasts_S512_S1x512 := by
  show StableHlo.after hostOps0 (W0 m ρ c) (Proc.devRef .tc main_v4) = _
  after_results <;> rfl

theorem V1_arg4 (c : Dev nD) : (V1 m ρ c main_arg4 : S1x512.Idx → EReal) = m ((c : Thread nD τ).loc main_arg4) := by
  show StableHlo.after hostOps0 (W0 m ρ c) (Proc.devRef .tc main_arg4) = _
  after_results <;> rfl

theorem V1_v5 (c : Dev nD) : (V1 m ρ c main_v5 : S1x1.Idx → EReal)
    = shapeCast S1x1 (m ((c : Thread nD τ).loc main_arg5)) shapeCasts_S1_S1x1 := by
  show StableHlo.after hostOps0 (W0 m ρ c) (Proc.devRef .tc main_v5) = _
  after_results <;> rfl

/-! ## The blocks: one grid point, every block the whole array -/

theorem hz : (![0, 0] : Fin 2 → Nat) = fun _ => 0 := funext fun a => by fin_cases a <;> rfl

/-- Every index map of the region is constantly the zero block (decided over the one grid point). -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

variable (V : (c : Dev nD) → (b : Ref sig .tc) → Buf (Elt Ideal) ((c : Thread nD τ).loc b))

/-- The image-feature window's block is the whole array. -/
theorem iblk0_0 (c : Dev nD) (t : Fin cfg0.N) : iblk0 V c 0 t = V c main_arg0 := by
  obtain ⟨e0, e1, -⟩ := idx_zero t
  funext j
  show V c main_arg0 (((cfg0.win 0).blk t).view.emb j) = V c main_arg0 j
  refine congrArg _ (funext fun a => Fin.ext ?_)
  match a with
  | ⟨0, _⟩ => show win0_0.index t (0 : Fin 2) * 128 + 1 * (j 0).val = (j 0).val; omega
  | ⟨1, _⟩ => show win0_0.index t (1 : Fin 2) * 1024 + 1 * (j 1).val = (j 1).val; omega

/-- The attribute-feature window's block is the whole array. -/
theorem iblk0_1 (c : Dev nD) (t : Fin cfg0.N) : iblk0 V c 1 t = V c main_arg1 := by
  obtain ⟨-, -, e0, e1, -⟩ := idx_zero t
  funext j
  show V c main_arg1 (((cfg0.win 1).blk t).view.emb j) = V c main_arg1 j
  refine congrArg _ (funext fun a => Fin.ext ?_)
  match a with
  | ⟨0, _⟩ => show win0_1.index t (0 : Fin 2) * 500 + 1 * (j 0).val = (j 0).val; omega
  | ⟨1, _⟩ => show win0_1.index t (1 : Fin 2) * 1024 + 1 * (j 1).val = (j 1).val; omega

/-- The left weight half's block is the whole array. -/
theorem iblk0_2 (c : Dev nD) (t : Fin cfg0.N) : iblk0 V c 2 t = V c main_v1 := by
  obtain ⟨-, -, -, -, e0, e1, -⟩ := idx_zero t
  funext j
  show V c main_v1 (((cfg0.win 2).blk t).view.emb j) = V c main_v1 j
  refine congrArg _ (funext fun a => Fin.ext ?_)
  match a with
  | ⟨0, _⟩ => show win0_2.index t (0 : Fin 2) * 1024 + 1 * (j 0).val = (j 0).val; omega
  | ⟨1, _⟩ => show win0_2.index t (1 : Fin 2) * 512 + 1 * (j 1).val = (j 1).val; omega

/-- The right weight half's block is the whole array. -/
theorem iblk0_3 (c : Dev nD) (t : Fin cfg0.N) : iblk0 V c 3 t = V c main_v3 := by
  obtain ⟨-, -, -, -, -, -, e0, e1, -⟩ := idx_zero t
  funext j
  show V c main_v3 (((cfg0.win 3).blk t).view.emb j) = V c main_v3 j
  refine congrArg _ (funext fun a => Fin.ext ?_)
  match a with
  | ⟨0, _⟩ => show win0_3.index t (0 : Fin 2) * 1024 + 1 * (j 0).val = (j 0).val; omega
  | ⟨1, _⟩ => show win0_3.index t (1 : Fin 2) * 512 + 1 * (j 1).val = (j 1).val; omega

/-! ## The first output: the image projection -/

/-- What the one point writes back to the first output is the whole product. -/
theorem flushed4_eq (c : Dev nD) (t : Fin cfg0.N) :
    (dat0 V c).flushed 4 t
      = ((cfg0.win 4).blk t).view.read (Elt Ideal) (k0_pay1 (F := Ideal) (V c main_arg0) (V c main_v1)) := by
  show (cfg0.win 4).cut (grid0.coords t) ((dat0 V c).after 4 t) = _
  rw [after0_4]
  unfold out0_4
  rw [View.canon_unit_zero hz]
  simp only [View.ld_unit_zero (S := S128x1024) hz, View.ld_unit_zero (S := S1024x512) hz]
  obtain ⟨-, -, -, -, -, -, -, -, e0, e1, -⟩ := idx_zero t
  funext j
  show k0_pay1 (F := Ideal) (iblk0 V c 0 t) (iblk0 V c 2 t) j
    = k0_pay1 (F := Ideal) (V c main_arg0) (V c main_v1) (((cfg0.win 4).blk t).view.emb j)
  rw [iblk0_0, iblk0_2]
  refine congrArg _ (funext fun a => Fin.ext ?_)
  match a with
  | ⟨0, _⟩ => show (j 0).val = win0_4.index t (0 : Fin 2) * 128 + 1 * (j 0).val; omega
  | ⟨1, _⟩ => show (j 1).val = win0_4.index t (1 : Fin 2) * 512 + 1 * (j 1).val; omega

theorem mem_blk4 (t : Fin cfg0.N) (i : S128x512.Idx) :
    i ∈ ((cfg0.win 4).blk t).view.set ↔ ∀ a : Fin 2, win0_4.index t a * S128x512.size a ≤ (i a).val
      ∧ (i a).val < win0_4.index t a * S128x512.size a + S128x512.size a := by
  show i ∈ ((View.whole main_v6_0).slice (win0_4.rect t)).set ↔ _
  rw [View.set_slice_whole, Rect.mem_set_unit]
  exact Iff.rfl

/-- The one block covers the array. -/
theorem cover4 (i : S128x512.Idx) :
    ∃ t : Fin cfg0.N, (cfg0.win 4).flush t = true ∧ i ∈ ((cfg0.win 4).blk t).view.set := by
  refine ⟨t0_0, flush0_4 t0_0, ?_⟩
  obtain ⟨-, -, -, -, -, -, -, -, e0, e1, -⟩ := idx_zero t0_0
  rw [mem_blk4]
  intro a
  match a with
  | ⟨0, _⟩ =>
    show win0_4.index t0_0 (0 : Fin 2) * 128 ≤ (i 0).val ∧ (i 0).val < win0_4.index t0_0 (0 : Fin 2) * 128 + 128
    have h : (i 0).val < 128 := (i 0).isLt
    omega
  | ⟨1, _⟩ =>
    show win0_4.index t0_0 (1 : Fin 2) * 512 ≤ (i 1).val ∧ (i 1).val < win0_4.index t0_0 (1 : Fin 2) * 512 + 512
    have h : (i 1).val < 512 := (i 1).isLt
    omega

/-- THE IMAGE PROJECTION after the region: the product of the image features with the transposed left half. -/
theorem img_array (c : Dev nD) :
    (dat0 V c).arrAt 4 cfg0.N = k0_pay1 (F := Ideal) (V c main_arg0) (V c main_v1) :=
  (dat0 V c).arrAt_eq_of_cover 4 (k0_pay1 (F := Ideal) (V c main_arg0) (V c main_v1))
    (fun t _ => flushed4_eq V c t) cover4

/-! ## The second output: the attribute projection -/

/-- What the one point writes back to the second output is the whole product. -/
theorem flushed5_eq (c : Dev nD) (t : Fin cfg0.N) :
    (dat0 V c).flushed 5 t
      = ((cfg0.win 5).blk t).view.read (Elt Ideal) (k0_pay2 (F := Ideal) (V c main_arg1) (V c main_v3)) := by
  show (cfg0.win 5).cut (grid0.coords t) ((dat0 V c).after 5 t) = _
  rw [after0_5]
  unfold out0_5
  rw [View.canon_unit_zero hz]
  simp only [View.ld_unit_zero (S := S500x1024) hz, View.ld_unit_zero (S := S1024x512) hz]
  obtain ⟨-, -, -, -, -, -, -, -, -, -, e0, e1⟩ := idx_zero t
  funext j
  show k0_pay2 (F := Ideal) (iblk0 V c 1 t) (iblk0 V c 3 t) j
    = k0_pay2 (F := Ideal) (V c main_arg1) (V c main_v3) (((cfg0.win 5).blk t).view.emb j)
  rw [iblk0_1, iblk0_3]
  refine congrArg _ (funext fun a => Fin.ext ?_)
  match a with
  | ⟨0, _⟩ => show (j 0).val = win0_5.index t (0 : Fin 2) * 500 + 1 * (j 0).val; omega
  | ⟨1, _⟩ => show (j 1).val = win0_5.index t (1 : Fin 2) * 512 + 1 * (j 1).val; omega

theorem mem_blk5 (t : Fin cfg0.N) (i : S500x512.Idx) :
    i ∈ ((cfg0.win 5).blk t).view.set ↔ ∀ a : Fin 2, win0_5.index t a * S500x512.size a ≤ (i a).val
      ∧ (i a).val < win0_5.index t a * S500x512.size a + S500x512.size a := by
  show i ∈ ((View.whole main_v6_1).slice (win0_5.rect t)).set ↔ _
  rw [View.set_slice_whole, Rect.mem_set_unit]
  exact Iff.rfl

/-- The one block covers the array. -/
theorem cover5 (i : S500x512.Idx) :
    ∃ t : Fin cfg0.N, (cfg0.win 5).flush t = true ∧ i ∈ ((cfg0.win 5).blk t).view.set := by
  refine ⟨t0_0, flush0_5 t0_0, ?_⟩
  obtain ⟨-, -, -, -, -, -, -, -, -, -, e0, e1⟩ := idx_zero t0_0
  rw [mem_blk5]
  intro a
  match a with
  | ⟨0, _⟩ =>
    show win0_5.index t0_0 (0 : Fin 2) * 500 ≤ (i 0).val ∧ (i 0).val < win0_5.index t0_0 (0 : Fin 2) * 500 + 500
    have h : (i 0).val < 500 := (i 0).isLt
    omega
  | ⟨1, _⟩ =>
    show win0_5.index t0_0 (1 : Fin 2) * 512 ≤ (i 1).val ∧ (i 1).val < win0_5.index t0_0 (1 : Fin 2) * 512 + 512
    have h : (i 1).val < 512 := (i 1).isLt
    omega

/-- THE ATTRIBUTE PROJECTION after the region: the product of the attribute features with the transposed right half. -/
theorem attr_array (c : Dev nD) :
    (dat0 V c).arrAt 5 cfg0.N = k0_pay2 (F := Ideal) (V c main_arg1) (V c main_v3) :=
  (dat0 V c).arrAt_eq_of_cover 5 (k0_pay2 (F := Ideal) (V c main_arg1) (V c main_v3))
    (fun t _ => flushed5_eq V c t) cover5

end Cert.KernelIdeal.ProjValue

end
-- ==== Proof.LibMiddleUnitAxis.lean ====
/-
  Layout operations on rank-3 arrays with a unit MIDDLE axis, read at an index written by coordinates.
  An `[a, 1, b]` array is an `[a, b]` matrix with a unit axis inserted; pairing the rows of an `[a, b]` matrix with the
  rows of a `[c, b]` matrix coordinate by coordinate goes through `[a, 1, b]` and `[1, c, b]`, both stretched to
  `[a, c, b]`. Each lemma here reads one such step at `(p, q, d)`; all are generic in the extents.
-/
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(p, q, d)`, the operand at `(p, 0, d)`: every
    middle coordinate sees the same row. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (d : Fin b) :
    broadcastTo ⟨3, ![a, c, b]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if b = 1 then 0 else d.val
    split
    · have := d.isLt; omega
    · rfl

/-- A `[1, c, b]` array broadcast to `[a, c, b]` reads, at `(p, q, d)`, the operand at `(0, q, d)`: every leading
    coordinate sees the same matrix. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (d : Fin b) :
    broadcastTo ⟨3, ![a, c, b]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if c = 1 then 0 else q.val
    split
    · have := q.isLt; omega
    · rfl
  | ⟨2, _⟩ =>
    show d.val = if b = 1 then 0 else d.val
    split
    · have := d.isLt; omega
    · rfl

/-- Row `k` of the middle axis of an `[a, n, b]` array, kept as `[a, 1, b]` and cast to `[a, b]`, reads at `(i, j)`
    the array at `(i, k, j)`. -/
theorem middleRow_apply {a n b : ℕ} (o : ℕ) (x : (⟨3, ![a, n, b]⟩ : Shape).Idx → α)
    (hs : (⟨3, ![a, n, b]⟩ : Shape).Slices ![0, o, 0] ⟨3, ![a, 1, b]⟩)
    (hc : (⟨3, ![a, 1, b]⟩ : Shape).ShapeCasts ⟨2, ![a, b]⟩) (k : Fin n) (hk : k.val = o) (i : Fin a) (j : Fin b) :
    shapeCast ⟨2, ![a, b]⟩ (extractStridedSlice ⟨3, ![a, 1, b]⟩ ![0, o, 0] x hs) hc (ix2 i j) = x (ix3 i k j) :=
  (shapeCast_a1b_ab_apply _ hc i j).trans
    (slice3_axis1_apply o x hs i (0 : Fin 1) j k (by rw [hk]; rfl))

end Idealize.ShloMosaic.ValueIdx
-- ==== Proof.LibBodyReads.lean ====
/-
  Three reads of a kernel body's vector terms at an index written by coordinates, generic in the extents:
  a `[1, 1, b]` row stretched along two leading axes to `[a, c, b]`; the sum over the LAST axis of a rank-3 array of
  extended reals; and the one entry of a 1×1 block extracted as a scalar.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ValueIdx

open Idealize.ShloMosaic

/-- A `[1, 1, b]` row stretched to `[a, c, b]` reads, at `(p, q, d)`, the row's entry `d`: every pair of leading
    coordinates sees the same row (a bias or weight row added to every row of every matrix of a batch). -/
theorem broadcastTo_11b_acb_apply {α : Type} {a c b : ℕ} (v : (⟨3, ![1, 1, b]⟩ : Shape).Idx → α)
    (h : (⟨3, ![1, 1, b]⟩ : Shape).Broadcasts ⟨3, ![a, c, b]⟩) (p : Fin a) (q : Fin c) (d : Fin b) :
    broadcastTo ⟨3, ![a, c, b]⟩ v h (ix3 p q d) = v (ix3 (0 : Fin 1) (0 : Fin 1) d) := by
  refine broadcastTo_apply v h (ix3 p q d) (ix3 (0 : Fin 1) (0 : Fin 1) d) fun ax => ?_
  match ax with
  | ⟨0, _⟩ => rfl
  | ⟨1, _⟩ => rfl
  | ⟨2, _⟩ =>
    show d.val = if b = 1 then 0 else d.val
    split
    · have := d.isLt; omega
    · rfl

/-- The sum over the last axis of an `[a, m, n]` array of extended reals (a `multi_reduction <add>` over axis 2),
    read at `(p, r)`, is the sum over the lane `k` of the entries `(p, r, k)`. The accumulator's proof argument is
    taken as the library states it, so use the lemma by `.trans` or `refine`, not by `rw`, on a printed term. -/
theorem laneSum_apply {a m n : ℕ} (x : FVec Ideal (⟨3, ![a, m, n]⟩ : Shape) .f32) (acc : BitVec 32)
    (h : (⟨3, ![a, m, n]⟩ : Shape).Reduces [(2 : Fin 3)] ⟨2, ![a, m]⟩) (hφ : FKind.Formats .f32)
    (hacc : acc = FKind.add.neutral .f32 hφ) (p : Fin a) (r : Fin m) :
    multiReduction .add [(2 : Fin 3)] ⟨2, ![a, m]⟩ x acc h hφ hacc (ix2 p r) = ∑ k : Fin n, x (ix3 p r k) :=
  (Ideal.multiReduction_add_single x acc h hφ hacc (ix2 p r)).trans
    (Finset.sum_congr rfl fun k _ => congrArg x (funext fun ax => Fin.ext (by
      match ax with
      | ⟨0, _⟩ => rfl
      | ⟨1, _⟩ => rfl
      | ⟨2, _⟩ => rfl)))

/-- The one entry of a 1×1 block, extracted as a scalar (`vector.extract %v[0, 0]`), is its entry `(0, 0)`. -/
theorem extract_1x1 {α : Type} (v : (⟨2, ![1, 1]⟩ : Shape).Idx → α)
    (h : ∀ ax, (![0, 0] : Fin 2 → ℕ) ax < (⟨2, ![1, 1]⟩ : Shape).size ax) :
    extractAt ![0, 0] v h = v (ix2 (0 : Fin 1) (0 : Fin 1)) :=
  congrArg v (funext fun ax => Fin.ext (by
    match ax with
    | ⟨0, _⟩ => rfl
    | ⟨1, _⟩ => rfl))

end Idealize.ShloMosaic.ValueIdx

end
-- ==== Proof.ScorePayload.lean ====
/-
  The scoring body at one entry.

  At a grid point the body holds eight rows `P` of the image projection, all five hundred rows `Q` of the
  attribute projection, the bias row `b1`, the weight row `w2` and the scalar `b2` (a 1×1 block).  It pairs every
  row of `P` with every row of `Q` along a new middle axis, adds the bias row, clamps below at zero, multiplies by
  the weight row, sums over the 512 hidden lanes, adds `b2` and applies the logistic function.  Read at `(r, q)`
  over the extended reals that is

      logistic ((∑ h, max ((P r h + Q q h) + b1 h) 0 * w2 h) + b2).
-/
import proofs.«160331_j21706764714077_1_alg».proof.Proof.Gen.KernelIdeal.Skeleton
import proofs.«160331_j21706764714077_1_alg».proof.Proof.LibMiddleUnitAxis
import proofs.«160331_j21706764714077_1_alg».proof.Proof.LibBodyReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Score

open Cert.KernelIdeal Cert.KernelIdeal.Gen
open Idealize.ShloMosaic Idealize.ShloMosaic.ValueIdx

/-- The scoring body's stored value at row `r` of the point's eight and attribute row `q`. -/
theorem payload_apply (P : Vec Ideal S8x512 .f32) (Q : Vec Ideal S500x512 .f32) (b1 w2 : Vec Ideal S1x512 .f32)
    (b2 : Vec Ideal S1x1 .f32) (r : Fin 8) (q : Fin 500) :
    k1_pay1 (F := Ideal) P Q b1 w2 b2 (ix2 r q)
      = Ideal.logistic ((∑ h : Fin 512, max ((P (ix2 r h) + Q (ix2 q h)) + b1 (ix2 (0 : Fin 1) h)) 0 * w2 (ix2 (0 : Fin 1) h))
          + b2 (ix2 (0 : Fin 1) (0 : Fin 1))) := by
  unfold k1_pay1
  dsimp only
  show Ideal.logistic (_ + _) = Ideal.logistic (_ + _)
  refine congrArg Ideal.logistic (congr (congrArg HAdd.hAdd ?_) (extract_1x1 b2 _))
  refine (laneSum_apply _ _ _ _ _ r q).trans (Finset.sum_congr rfl fun h _ => ?_)
  simp only [mulf_apply, maximumf_apply, addf_apply, broadcast_apply, broadcastTo_a1b_acb_apply,
    broadcastTo_1cb_acb_apply, broadcastTo_11b_acb_apply, shapeCast_ab_a1b_apply, shapeCast_ab_1ab_apply,
    shapeCast_self, Ideal.ofBits_def, Ideal.ofBits_zero_f32]

end Cert.KernelIdeal.Score

end
-- ==== Proof.Spec.lean ====
/-
  The specification: the relation score of one image row against one attribute row.

  Given the image projection `P` (128 rows of 512 hidden units), the attribute projection `Q` (500 rows), the
  hidden bias `b1`, the output weights `w2` (one row) and the output bias `b2`, entry `(b, c)` of the result is

      logistic ((∑ h, max ((P b h + Q c h) + b1 h) 0 * w2 h) + b2)

  over the extended reals: the two projections paired row against row, a rectified hidden layer, one output unit,
  the logistic function.
-/
import Idealize.ShloMosaic.PureOps.Ideal
import Idealize.ShloMosaic.Lib.ValueIdx

noncomputable section

namespace Cert.Spec

open Idealize.ShloMosaic Idealize.ShloMosaic.ValueIdx

/-- The score of image row `b` against attribute row `c`. -/
def scoreAt (P : (⟨2, ![128, 512]⟩ : Shape).Idx → EReal) (Q : (⟨2, ![500, 512]⟩ : Shape).Idx → EReal)
    (b1 : (⟨1, ![512]⟩ : Shape).Idx → EReal) (w2 : (⟨2, ![1, 512]⟩ : Shape).Idx → EReal)
    (b2 : (⟨1, ![1]⟩ : Shape).Idx → EReal) (b : Fin 128) (c : Fin 500) : EReal :=
  Ideal.logistic ((∑ h : Fin 512, max ((P (ix2 b h) + Q (ix2 c h)) + b1 (ix1 h)) 0 * w2 (ix2 (0 : Fin 1) h))
    + b2 (ix1 (0 : Fin 1)))

/-- The whole 128 × 500 array of scores. -/
def score (P : (⟨2, ![128, 512]⟩ : Shape).Idx → EReal) (Q : (⟨2, ![500, 512]⟩ : Shape).Idx → EReal)
    (b1 : (⟨1, ![512]⟩ : Shape).Idx → EReal) (w2 : (⟨2, ![1, 512]⟩ : Shape).Idx → EReal)
    (b2 : (⟨1, ![1]⟩ : Shape).Idx → EReal) : (⟨2, ![128, 500]⟩ : Shape).Idx → EReal :=
  fun i => scoreAt P Q b1 w2 b2 (i 0) (i 1)

theorem score_ix2 (P : (⟨2, ![128, 512]⟩ : Shape).Idx → EReal) (Q : (⟨2, ![500, 512]⟩ : Shape).Idx → EReal)
    (b1 : (⟨1, ![512]⟩ : Shape).Idx → EReal) (w2 : (⟨2, ![1, 512]⟩ : Shape).Idx → EReal)
    (b2 : (⟨1, ![1]⟩ : Shape).Idx → EReal) (b : Fin 128) (c : Fin 500) :
    score P Q b1 w2 b2 (ix2 b c) = scoreAt P Q b1 w2 b2 b c := rfl

end Cert.Spec

end
-- ==== Proof.ScoreValue.lean ====
/-
  The scoring region's output array.

  Its grid has sixteen points; point `t` reads rows `8 t … 8 t + 7` of the image projection and, whole, the attribute
  projection, the bias row, the weight row and the 1×1 output bias, and writes back rows `8 t … 8 t + 7` of the
  result.  The body's entry `(r, q)` at point `t` is the score of image row `8 t + r` against attribute row `q`, so
  every write-back is its block of ONE array, the score array of the two projections, and the sixteen blocks tile the
  128 rows.  The bias row and the output bias reach the region as a vector and a one-entry vector reshaped by the host
  to `[1, 512]` and `[1, 1]`; read back at their entries they are the vectors themselves.
-/
import proofs.«160331_j21706764714077_1_alg».proof.Proof.Gen.KernelIdeal.Frame
import proofs.«160331_j21706764714077_1_alg».proof.Proof.ScorePayload
import proofs.«160331_j21706764714077_1_alg».proof.Proof.Spec
import Idealize.ShloMosaic.PureOps.Ideal
import Idealize.ShloMosaic.Lib.Pipeline.Value
import Idealize.ShloMosaic.Lib.ValueLayout

set_option maxRecDepth 16384

noncomputable section

namespace Cert.KernelIdeal.ScoreValue

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- The printed index maps, decided over the sixteen points: the image-projection window moves with the output
    window along the rows, every other block index is zero, and the output's row block stays below sixteen. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 15 :=
  (by decide +kernel : ∀ t : Fin grid1.N, _)

/-- Every row block of the output is SOME point's. -/
theorem idx_onto : ∀ q0 : Fin 16, ∃ t : Fin cfg1.N, win1_5.index t = ![q0.val, 0] :=
  (by decide +kernel : ∀ q0 : Fin 16, ∃ t : Fin grid1.N, win1_5.index t = ![q0.val, 0])

variable (V : (c : Dev nD) → (b : Ref sig .tc) → Buf (Elt Ideal) ((c : Thread nD τ).loc b))

/-! ## The input blocks at a point -/

/-- Row `r` of the image-projection block at point `t` is row `b` of the array, where `b = 8 · (block index) + r`. -/
theorem imgBlock_apply (c : Dev nD) (t : Fin cfg1.N) (r : Fin 8) (h : Fin 512) (b : Fin 128)
    (hb : b.val = win1_5.index t (0 : Fin 2) * 8 + r.val) :
    iblk1 V c 0 t (ix2 r h) = V c main_v6_0 (ix2 b h) := by
  obtain ⟨e0, e1, -⟩ := idx_facts t
  show V c main_v6_0 (((cfg1.win 0).blk t).view.emb (ix2 r h)) = V c main_v6_0 (ix2 b h)
  refine congrArg _ (funext fun a => Fin.ext ?_)
  match a with
  | ⟨0, _⟩ => show win1_0.index t (0 : Fin 2) * 8 + 1 * r.val = b.val; omega
  | ⟨1, _⟩ => show win1_0.index t (1 : Fin 2) * 512 + 1 * h.val = h.val; omega

/-- The attribute-projection block is the whole array. -/
theorem attrBlock (c : Dev nD) (t : Fin cfg1.N) : iblk1 V c 1 t = V c main_v6_1 := by
  obtain ⟨-, -, e0, e1, -⟩ := idx_facts t
  funext j
  show V c main_v6_1 (((cfg1.win 1).blk t).view.emb j) = V c main_v6_1 j
  refine congrArg _ (funext fun a => Fin.ext ?_)
  match a with
  | ⟨0, _⟩ => show win1_1.index t (0 : Fin 2) * 500 + 1 * (j 0).val = (j 0).val; omega
  | ⟨1, _⟩ => show win1_1.index t (1 : Fin 2) * 512 + 1 * (j 1).val = (j 1).val; omega

/-- The bias-row block is the whole row. -/
theorem biasBlock (c : Dev nD) (t : Fin cfg1.N) : iblk1 V c 2 t = V c main_v4 := by
  obtain ⟨-, -, -, -, e0, e1, -⟩ := idx_facts t
  funext j
  show V c main_v4 (((cfg1.win 2).blk t).view.emb j) = V c main_v4 j
  refine congrArg _ (funext fun a => Fin.ext ?_)
  match a with
  | ⟨0, _⟩ => show win1_2.index t (0 : Fin 2) * 1 + 1 * (j 0).val = (j 0).val; omega
  | ⟨1, _⟩ => show win1_2.index t (1 : Fin 2) * 512 + 1 * (j 1).val = (j 1).val; omega

/-- The weight-row block is the whole row. -/
theorem weightBlock (c : Dev nD) (t : Fin cfg1.N) : iblk1 V c 3 t = V c main_arg4 := by
  obtain ⟨-, -, -, -, -, -, e0, e1, -⟩ := idx_facts t
  funext j
  show V c main_arg4 (((cfg1.win 3).blk t).view.emb j) = V c main_arg4 j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 512 + 1 * (j 1).val = (j 1).val; omega

/-- The output-bias block is the whole 1×1 array. -/
theorem outBiasBlock (c : Dev nD) (t : Fin cfg1.N) : iblk1 V c 4 t = V c main_v5 := by
  obtain ⟨-, -, -, -, -, -, -, -, e0, e1, -⟩ := idx_facts t
  funext j
  show V c main_v5 (((cfg1.win 4).blk t).view.emb j) = V c main_v5 j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 1 + 1 * (j 1).val = (j 1).val; omega

/-! ## What a point writes back -/

/-- WHAT POINT `t` WRITES BACK is block `t` of the score array of the two projections, when the region finds the hidden
    bias `b1` and the output bias `b2` reshaped to a row and to a 1×1 array. -/
theorem flushed_eq (c : Dev nD) (b1 : S512.Idx → EReal) (b2 : S1.Idx → EReal)
    (h4 : (V c main_v4 : S1x512.Idx → EReal) = shapeCast S1x512 b1 shapeCasts_S512_S1x512)
    (h5 : (V c main_v5 : S1x1.Idx → EReal) = shapeCast S1x1 b2 shapeCasts_S1_S1x1) (t : Fin cfg1.N) :
    (dat1 V c).flushed 5 t = ((cfg1.win 5).blk t).view.read (Elt Ideal)
      (Cert.Spec.score (V c main_v6_0) (V c main_v6_1) b1 (V c main_arg4) b2) := by
  show (cfg1.win 5).cut (grid1.coords t) ((dat1 V c).after 5 t) = _
  rw [after1_5]
  unfold out1_5
  rw [View.canon_unit_zero hz]
  simp only [View.ld_unit_zero (S := S8x512) hz, View.ld_unit_zero (S := S500x512) hz,
    View.ld_unit_zero (S := S1x512) hz, View.ld_unit_zero (S := S1x1) hz]
  obtain ⟨-, -, -, -, -, -, -, -, -, -, e51, e50⟩ := idx_facts t
  funext j
  obtain ⟨r, q, rfl⟩ : ∃ (r : Fin 8) (q : Fin 500), j = ix2 r q := ⟨j 0, j 1, eq_ix2 j⟩
  refine (Score.payload_apply (iblk1 V c 0 t) (iblk1 V c 1 t) (iblk1 V c 2 t) (iblk1 V c 3 t) (iblk1 V c 4 t) r q).trans ?_
  have hlt : win1_5.index t (0 : Fin 2) * 8 + r.val < 128 := by have := r.isLt; omega
  refine Eq.trans ?_ (congrArg₂ (Cert.Spec.scoreAt (V c main_v6_0) (V c main_v6_1) b1 (V c main_arg4) b2)
    (show (⟨win1_5.index t (0 : Fin 2) * 8 + r.val, hlt⟩ : Fin 128) = (((cfg1.win 5).blk t).view.emb (ix2 r q)) 0 from
      Fin.ext (by show win1_5.index t (0 : Fin 2) * 8 + r.val = win1_5.index t (0 : Fin 2) * 8 + 1 * r.val; omega))
    (show q = (((cfg1.win 5).blk t).view.emb (ix2 r q)) 1 from
      Fin.ext (by show q.val = win1_5.index t (1 : Fin 2) * 500 + 1 * q.val; omega)))
  unfold Cert.Spec.scoreAt
  refine congrArg Ideal.logistic (congr (congrArg HAdd.hAdd (Finset.sum_congr rfl fun h _ => ?_)) ?_)
  · rw [imgBlock_apply V c t r h ⟨_, hlt⟩ rfl, attrBlock, biasBlock, weightBlock, h4, shapeCast_a_1a_apply]
  · rw [outBiasBlock, h5, shapeCast_a_1a_apply]

/-! ## The sixteen blocks tile the rows -/

theorem mem_blk (t : Fin cfg1.N) (i : S128x500.Idx) :
    i ∈ ((cfg1.win 5).blk t).view.set ↔ ∀ a : Fin 2, win1_5.index t a * S8x500.size a ≤ (i a).val
      ∧ (i a).val < win1_5.index t a * S8x500.size a + S8x500.size a := by
  show i ∈ ((View.whole main_v7).slice (win1_5.rect t)).set ↔ _
  rw [View.set_slice_whole, Rect.mem_set_unit]
  exact Iff.rfl

/-- Row `b` of the result is written by the point whose row block is `b / 8`. -/
theorem cover (i : S128x500.Idx) :
    ∃ t : Fin cfg1.N, (cfg1.win 5).flush t = true ∧ i ∈ ((cfg1.win 5).blk t).view.set := by
  have hi0 : (i 0).val < 128 := (i 0).isLt
  have hi1 : (i 1).val < 500 := (i 1).isLt
  obtain ⟨t, ht⟩ := idx_onto ⟨(i 0).val / 8, by omega⟩
  have q0 : win1_5.index t (0 : Fin 2) = (i 0).val / 8 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 8 ≤ (i 0).val ∧ (i 0).val < win1_5.index t (0 : Fin 2) * 8 + 8
    omega
  | ⟨1, _⟩ =>
    show win1_5.index t (1 : Fin 2) * 500 ≤ (i 1).val ∧ (i 1).val < win1_5.index t (1 : Fin 2) * 500 + 500
    omega

/-- THE RESULT ARRAY after the region: the score array of the two projections the region was entered with. -/
theorem result_array (c : Dev nD) (b1 : S512.Idx → EReal) (b2 : S1.Idx → EReal)
    (h4 : (V c main_v4 : S1x512.Idx → EReal) = shapeCast S1x512 b1 shapeCasts_S512_S1x512)
    (h5 : (V c main_v5 : S1x1.Idx → EReal) = shapeCast S1x1 b2 shapeCasts_S1_S1x1) :
    (dat1 V c).arrAt 5 cfg1.N = Cert.Spec.score (V c main_v6_0) (V c main_v6_1) b1 (V c main_arg4) b2 :=
  (dat1 V c).arrAt_eq_of_cover 5 (Cert.Spec.score (V c main_v6_0) (V c main_v6_1) b1 (V c main_arg4) b2)
    (fun t _ => flushed_eq V c b1 b2 h4 h5 t) cover

end Cert.KernelIdeal.ScoreValue

end
-- ==== Proof.ProjEq.lean ====
/-
  The two projections are the same arrays on both sides.

  The kernel's projection body multiplies the image features (and, in its second half, the attribute features) by a
  transposed half of the first-layer weights on the matrix unit, accumulating into zero; the reference takes the same
  product with a host `dot_general`.  Over the extended reals a change of float format is the identity and both
  products are, entry by entry, the sum over the contraction index of the operands' products — the same sum, over
  the same index set, because the two programs' dimension records list the same axes.
-/
import proofs.«160331_j21706764714077_1_alg».proof.Proof.Gen.KernelIdeal.Skeleton
import proofs.«160331_j21706764714077_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx

/-- The image projection: the kernel's matrix product of the image features with the transposed left half of the
    first-layer weights is the reference's `dot_general` of the same two arrays. -/
theorem imgProj_eq (a0 : FVec Ideal Cert.KernelIdeal.S128x1024 .f32) (w : FVec Ideal Cert.KernelIdeal.S1024x512 .f32) :
    Cert.KernelIdeal.Gen.k0_pay1 (F := Ideal) a0 w
      = Host.dotGeneral (F := Ideal) Cert.ReferenceIdeal.dot_S128x1024_S1024x512_S128x512_1_0_0_1_n_n none a0 w := by
  funext j
  unfold Cert.KernelIdeal.Gen.k0_pay1
  simp only [Host.dotGeneral, matmul]
  refine (Ideal.matmul_constant_zero_apply _ none _ _ j).trans ?_
  refine Eq.trans ?_ (Ideal.dotGeneral_apply _ none _ _ _ j).symm
  rw [shapeCast_self]
  rfl

/-- The attribute projection, likewise, with the right half of the weights. -/
theorem attrProj_eq (a1 : FVec Ideal Cert.KernelIdeal.S500x1024 .f32) (w : FVec Ideal Cert.KernelIdeal.S1024x512 .f32) :
    Cert.KernelIdeal.Gen.k0_pay2 (F := Ideal) a1 w
      = Host.dotGeneral (F := Ideal) Cert.ReferenceIdeal.dot_S500x1024_S1024x512_S500x512_1_0_0_1_n_n none a1 w := by
  funext j
  unfold Cert.KernelIdeal.Gen.k0_pay2
  simp only [Host.dotGeneral, matmul]
  refine (Ideal.matmul_constant_zero_apply _ none _ _ j).trans ?_
  refine Eq.trans ?_ (Ideal.dotGeneral_apply _ none _ _ _ j).symm
  rw [shapeCast_self]
  rfl

end Cert.Bridge

end
-- ==== Proof.KernelValue.lean ====
/-
  The idealized kernel's result as a function of its arguments.

  The scoring region is entered with: the two projection arrays the first region left (the matrix products of the
  features with the transposed halves of the first-layer weights), the hidden bias reshaped to a row, the output
  weights as launched, and the output bias reshaped to a 1×1 array.  Its output array is therefore the score array
  of those two products; and each product is the reference's host product of the same operands.
-/
import proofs.«160331_j21706764714077_1_alg».proof.Proof.KernelRun
import proofs.«160331_j21706764714077_1_alg».proof.Proof.ProjValue
import proofs.«160331_j21706764714077_1_alg».proof.Proof.ScoreValue
import proofs.«160331_j21706764714077_1_alg».proof.Proof.ProjEq

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## What the scoring region is entered with -/

theorem V2_img (c : Dev nD) : (V2 m ρ c main_v6_0 : S128x512.Idx → EReal)
    = k0_pay1 (F := Ideal) (m ((c : Thread nD τ).loc main_arg0)) (ProjValue.wImg m c) :=
  (W2_arr m ρ c 4).trans ((ProjValue.img_array (V1 m ρ) c).trans (by rw [ProjValue.V1_arg0, ProjValue.V1_v1]))

theorem V2_attr (c : Dev nD) : (V2 m ρ c main_v6_1 : S500x512.Idx → EReal)
    = k0_pay2 (F := Ideal) (m ((c : Thread nD τ).loc main_arg1)) (ProjValue.wAttr m c) :=
  (W2_arr m ρ c 5).trans ((ProjValue.attr_array (V1 m ρ) c).trans (by rw [ProjValue.V1_arg1, ProjValue.V1_v3]))

theorem V2_v4 (c : Dev nD) : (V2 m ρ c main_v4 : S1x512.Idx → EReal)
    = shapeCast S1x512 (m ((c : Thread nD τ).loc main_arg3)) shapeCasts_S512_S1x512 :=
  (W2_of_ne m ρ c main_v4 (by decide)).trans (ProjValue.V1_v4 m ρ c)

theorem V2_arg4 (c : Dev nD) : (V2 m ρ c main_arg4 : S1x512.Idx → EReal) = m ((c : Thread nD τ).loc main_arg4) :=
  (W2_of_ne m ρ c main_arg4 (by decide)).trans (ProjValue.V1_arg4 m ρ c)

theorem V2_v5 (c : Dev nD) : (V2 m ρ c main_v5 : S1x1.Idx → EReal)
    = shapeCast S1x1 (m ((c : Thread nD τ).loc main_arg5)) shapeCasts_S1_S1x1 :=
  (W2_of_ne m ρ c main_v5 (by decide)).trans (ProjValue.V1_v5 m ρ c)

/-! ## The result -/

/-- The result buffer after the run: the score array of the reference's two host products of the arguments. -/
theorem result_eq (c : Dev nD) :
    W3 m ρ c (Proc.devRef .tc main_v7)
      = Cert.Spec.score
          (Cert.ReferenceIdeal.Read.val_main_v2 (F := Ideal) (m ((c : Thread nD τ).loc main_arg0)) (m ((c : Thread nD τ).loc main_arg2)))
          (Cert.ReferenceIdeal.Read.val_main_v5 (F := Ideal) (m ((c : Thread nD τ).loc main_arg1)) (m ((c : Thread nD τ).loc main_arg2)))
          (m ((c : Thread nD τ).loc main_arg3)) (m ((c : Thread nD τ).loc main_arg4)) (m ((c : Thread nD τ).loc main_arg5)) := by
  rw [RunValue.W3_result,
    ScoreValue.result_array (V2 m ρ) c (m ((c : Thread nD τ).loc main_arg3)) (m ((c : Thread nD τ).loc main_arg5))
      (V2_v4 m ρ c) (V2_v5 m ρ c),
    V2_img, V2_attr, V2_arg4, Cert.Bridge.imgProj_eq, Cert.Bridge.attrProj_eq]
  rfl

/-- Every weakly fair execution of the idealized kernel terminates, nothing faulting, with the result at the score
    array of its arguments and the arguments unchanged. -/
theorem run : θ_run defs (onTc (τ := τ) (main (F := Ideal))) ⟨m, fun _ => 0, ρ⟩ (fun r => ∀ c : Dev nD,
      r.2.mem ((c.tc : Thread nD τ).loc main_v7)
        = Cert.Spec.score
            (Cert.ReferenceIdeal.Read.val_main_v2 (F := Ideal) (m ((c.tc : Thread nD τ).loc main_arg0)) (m ((c.tc : Thread nD τ).loc main_arg2)))
            (Cert.ReferenceIdeal.Read.val_main_v5 (F := Ideal) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (RunValue.run m ρ)

end Cert.KernelIdeal.KernelValue

end
-- ==== Proof.RefScore.lean ====
/-
  The reference computes the specification.

  Read one operation at a time, entry `(b, c)` of the reference's result is the quotient
  `1 / (1 + exp (-z))` — the logistic function of `z` spelt out on the host — where `z` is the contraction over the
  512 hidden units of `max ((P b h + Q c h) + b1 h) 0 * w2 h`, plus the output bias; `P` and `Q` are the two host
  products of the features with the transposed halves of the first-layer weights.  The broadcasts only repeat entries,
  so every layout step is an equation between index tuples.
-/
import proofs.«160331_j21706764714077_1_alg».proof.Proof.Gen.ReferenceIdeal.Read
import proofs.«160331_j21706764714077_1_alg».proof.Proof.Spec
import Idealize.ShloMosaic.PureOps.IdealRules

noncomputable section

namespace Cert.ReferenceIdeal.RefValue

open Cert.ReferenceIdeal Cert.ReferenceIdeal.Read
open Idealize.ShloMosaic Idealize.ShloMosaic.ValueIdx

/-- The f32 word `0x3F800000` is the number one. -/
theorem ofBits_one : Ideal.ofBits .f32 0x3F800000#32 = 1 := IdealRules.sign_bit.ideal_onePat .f32

variable (x0 : FVec Ideal S128x1024 .f32) (x1 : FVec Ideal S500x1024 .f32) (x2 : FVec Ideal S512x2048 .f32)
  (x3 : FVec Ideal S512 .f32) (x4 : FVec Ideal S1x512 .f32) (x5 : FVec Ideal S1 .f32)

/-- One rectified hidden unit: entry `(b, c, k)` of the clamped sum of the two broadcast projections and the bias. -/
theorem hidden_apply (b : Fin 128) (c : Fin 500) (k : Fin 512) :
    val_main_v14 (F := Ideal) x0 x1 x2 x3 (ix3 b c k)
      = max ((val_main_v2 (F := Ideal) x0 x2 (ix2 b k) + val_main_v5 (F := Ideal) x1 x2 (ix2 c k)) + x3 (ix1 k)) 0 := by
  have e8 : idx_main_v6 (idx_main_v8 (ix3 b c k)) = ix2 b k := funext fun a => Fin.ext (by
    match a with
    | ⟨0, _⟩ => rfl
    | ⟨1, _⟩ => rfl)
  have e9 : idx_main_v7 (idx_main_v9 (ix3 b c k)) = ix2 c k := funext fun a => Fin.ext (by
    match a with
    | ⟨0, _⟩ => rfl
    | ⟨1, _⟩ => rfl)
  have e12 : idx_main_v11 (idx_main_v12 (ix3 b c k)) = ix1 k := funext fun a => Fin.ext (by
    match a with
    | ⟨0, _⟩ => rfl)
  rw [val_main_v14_apply, val_main_v13_apply, val_main_v10_apply, val_main_v8_apply, val_main_v6_apply, e8,
    val_main_v9_apply, val_main_v7_apply, e9, val_main_v12_apply, val_main_v11_apply, e12,
    val_main_call0_v0_apply, val_main_call0_cst_apply]
  simp only [Ideal.addf_def, Ideal.maximumf_def, Ideal.ofBits_def, Ideal.ofBits_zero_f32]

/-- The reference's result is the score array of its two projections. -/
theorem result_eq :
    val_main_v25 (F := Ideal) x0 x1 x2 x3 x4 x5
      = Cert.Spec.score (val_main_v2 (F := Ideal) x0 x2) (val_main_v5 (F := Ideal) x1 x2) x3 x4 x5 := by
  funext i
  obtain ⟨b, c, rfl⟩ : ∃ (b : Fin 128) (c : Fin 500), i = ix2 b c := ⟨i 0, i 1, eq_ix2 i⟩
  rw [Cert.Spec.score_ix2]
  unfold Cert.Spec.scoreAt
  have e25 : idx_main_v25 (ix2 b c) = ix3 b c (0 : Fin 1) := funext fun a => Fin.ext (by
    have hb := b.isLt
    have hc := c.isLt
    match a with
    | ⟨0, _⟩ => show (b.val * 500 + c.val) / 500 = b.val; omega
    | ⟨1, _⟩ => show (b.val * 500 + c.val) / 1 % 500 = c.val; omega
    | ⟨2, _⟩ => rfl)
  have e17 : idx_main_v16 (idx_main_v17 (ix3 b c (0 : Fin 1))) = ix1 (0 : Fin 1) := funext fun a => Fin.ext (by
    match a with
    | ⟨0, _⟩ => rfl)
  have el : ∀ k : Fin 512, lidx_main_v15 (ix3 b c (0 : Fin 1)) k = ix3 b c k := fun k => funext fun a => Fin.ext (by
    match a with
    | ⟨0, _⟩ => rfl
    | ⟨1, _⟩ => rfl
    | ⟨2, _⟩ => rfl)
  have er : ∀ k : Fin 512, ridx_main_v15 (ix3 b c (0 : Fin 1)) k = ix2 (0 : Fin 1) k := fun k => funext fun a => Fin.ext (by
    match a with
    | ⟨0, _⟩ => rfl
    | ⟨1, _⟩ => rfl)
  rw [val_main_v25_apply, e25, val_main_v24_apply, val_main_v23_apply, val_main_cst_0_apply, val_main_v22_apply,
    val_main_v21_apply, val_main_cst_apply, val_main_v20_apply, val_main_v19_apply, val_main_v18_apply,
    val_main_v17_apply, val_main_v16_apply, e17, val_main_v15_apply]
  simp only [el, er, hidden_apply, Ideal.addf_def, Ideal.hostDivf_def, Ideal.hostUnary_exp_def, Ideal.hostNegf_def,
    Ideal.negf_def, Ideal.ofBits_def, ofBits_one]
  rfl

end Cert.ReferenceIdeal.RefValue

end
-- ==== Proof.lean ====
/-
  The certificate: a relation module — two first-layer projections, a rectified hidden layer over every pair of an image
  row and an attribute row, one output unit and the logistic function — as a pair of kernel regions, against the
  plain array program.

  Over the extended reals both programs compute, at entry (b, c),

      logistic ((∑ h, max ((P b h + Q c h) + b1 h) 0 * w2 h) + b2),

  with P the product of the image features and Q the product of the attribute features with the transposed halves of
  the first-layer weights.  The kernel takes the two products on the matrix unit in its first region (a change of float
  format is the identity here, and the product into a zero accumulator is the host's product), and in its second
  region scores eight image rows at a time against all attribute rows; the sum over the hidden lanes is the host's
  contraction, and the kernel's logistic is the quotient 1 / (1 + exp (-z)) the reference spells out.  No law needing
  finite entries is used: the two sides are the same expression, so the precondition is never opened.
  The idealization rewrote nothing, so the preservation claim is trivial.
-/
import proofs.«160331_j21706764714077_1_alg».proof.Defs
import proofs.«160331_j21706764714077_1_alg».proof.Proof.Gen.Kernel
import proofs.«160331_j21706764714077_1_alg».proof.Proof.Gen.Kernel.Skeleton
import proofs.«160331_j21706764714077_1_alg».proof.Proof.Gen.Kernel.Launch
import proofs.«160331_j21706764714077_1_alg».proof.Proof.Gen.Kernel.Points
import proofs.«160331_j21706764714077_1_alg».proof.Proof.Gen.Kernel.Frame
import proofs.«160331_j21706764714077_1_alg».proof.Proof.Gen.KernelIdeal
import proofs.«160331_j21706764714077_1_alg».proof.Proof.Gen.KernelIdeal.Skeleton
import proofs.«160331_j21706764714077_1_alg».proof.Proof.Gen.KernelIdeal.Launch
import proofs.«160331_j21706764714077_1_alg».proof.Proof.Gen.KernelIdeal.Points
import proofs.«160331_j21706764714077_1_alg».proof.Proof.Gen.KernelIdeal.Frame
import proofs.«160331_j21706764714077_1_alg».proof.Proof.Gen.ReferenceIdeal
import proofs.«160331_j21706764714077_1_alg».proof.Proof.Gen.ReferenceIdeal.Run
import proofs.«160331_j21706764714077_1_alg».proof.Proof.Gen.ReferenceIdeal.Read
import proofs.«160331_j21706764714077_1_alg».proof.Proof.Gen.Pre_finite_inputs
import proofs.«160331_j21706764714077_1_alg».proof.Proof.KernelValue
import proofs.«160331_j21706764714077_1_alg».proof.Proof.RefScore
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the score array of the same two products of the same arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
